-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x32 : Shape := ⟨2, ![50000, 32]⟩
abbrev S128x129 : Shape := ⟨2, ![128, 129]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x129 : S_.BroadcastsInDim S128x129 (![] : Fin 0 → Fin S128x129.rank)
  reducesTo_S128x129_S_d0_1 : S128x129.ReducesTo [0, 1] S_

variable [Facts]

def fn {F : FTy → Type} [FloatOps F] (main_arg0 : FVec F S50000x64 .f32) (main_arg1 : IVec S50000x32 32) (main_arg2 : FVec F S128x129 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x129 .f32 := Host.absf main_arg2
  let main_cst_0 : FVec F S_ .f32 := constant S_ .f32 0x7F800000#32
  let main_v5 : FVec F S128x129 .f32 := broadcastInDim S128x129 ![] bcast_S_S128x129 main_cst_0
  let main_v6 : IVec S128x129 1 := cmpf .olt main_v4 main_v5
  let main_c_1 : IVec S_ 1 := constantI S_ 1 1#1
  let main_v7 : IVec S_ 1 := (fun x v => Host.reduce IntOp.andi x v reducesTo_S128x129_S_d0_1 h_S_) main_v6 main_c_1
  let main_v8 : IVec S_ 1 := andi main_v3 main_v7
  main_v8
-- ==== Kernel.lean ====
abbrev S50000x64 : Shape := ⟨2, ![50000, 64]⟩
abbrev S50000x32 : Shape := ⟨2, ![50000, 32]⟩
abbrev S128x129 : Shape := ⟨2, ![128, 129]⟩
abbrev S_ : Shape := ⟨0, ![]⟩
abbrev S50000x32x1 : Shape := ⟨3, ![50000, 32, 1]⟩
abbrev S50000x32x64 : Shape := ⟨3, ![50000, 32, 64]⟩
abbrev S50000x1 : Shape := ⟨2, ![50000, 1]⟩
abbrev S50000 : Shape := ⟨1, ![50000]⟩
abbrev S129x128 : Shape := ⟨2, ![129, 128]⟩
abbrev S64x128 : Shape := ⟨2, ![64, 128]⟩
abbrev S1x128 : Shape := ⟨2, ![1, 128]⟩
abbrev S50000x32x128 : Shape := ⟨3, ![50000, 32, 128]⟩
abbrev S200x32x64 : Shape := ⟨3, ![200, 32, 64]⟩
abbrev S200x64 : Shape := ⟨2, ![200, 64]⟩
abbrev S200x32x128 : Shape := ⟨3, ![200, 32, 128]⟩
abbrev S200x1x64 : Shape := ⟨3, ![200, 1, 64]⟩
abbrev S200x32 : Shape := ⟨2, ![200, 32]⟩
abbrev S200x32x1 : Shape := ⟨3, ![200, 32, 1]⟩
abbrev S6400x64 : Shape := ⟨2, ![6400, 64]⟩
abbrev S6400x128 : Shape := ⟨2, ![6400, 128]⟩
abbrev S1x1x128 : Shape := ⟨3, ![1, 1, 128]⟩
abbrev S200x128 : Shape := ⟨2, ![200, 128]⟩
abbrev S200x1x128 : Shape := ⟨3, ![200, 1, 128]⟩

abbrev nBuf : Space → Nat
  | .hbm => 28
  | .vmem => 9
  | .smem => 0
  | _ => 0

abbrev bufTy : (tb : Table) → Fin (tcTables nBuf tb) → BufTy
  | .hbm, ⟨0, _⟩ => ⟨S50000x64, .f32⟩
  | .hbm, ⟨1, _⟩ => ⟨S50000x32, .i32⟩
  | .hbm, ⟨2, _⟩ => ⟨S128x129, .f32⟩
  | .hbm, ⟨3, _⟩ => ⟨S_, .i32⟩
  | .hbm, ⟨4, _⟩ => ⟨S50000x32, .i32⟩
  | .hbm, ⟨5, _⟩ => ⟨S50000x32, .i1⟩
  | .hbm, ⟨6, _⟩ => ⟨S_, .i32⟩
  | .hbm, ⟨7, _⟩ => ⟨S50000x32, .i32⟩
  | .hbm, ⟨8, _⟩ => ⟨S50000x32, .i32⟩
  | .hbm, ⟨9, _⟩ => ⟨S50000x32, .i32⟩
  | .hbm, ⟨10, _⟩ => ⟨S50000x32x1, .i32⟩
  | .hbm, ⟨11, _⟩ => ⟨S50000x32x64, .f32⟩
  | .hbm, ⟨12, _⟩ => ⟨S50000x1, .i32⟩
  | .hbm, ⟨13, _⟩ => ⟨S50000, .i32⟩
  | .hbm, ⟨14, _⟩ => ⟨S_, .i32⟩
  | .hbm, ⟨15, _⟩ => ⟨S50000, .i32⟩
  | .hbm, ⟨16, _⟩ => ⟨S50000, .i1⟩
  | .hbm, ⟨17, _⟩ => ⟨S_, .i32⟩
  | .hbm, ⟨18, _⟩ => ⟨S50000, .i32⟩
  | .hbm, ⟨19, _⟩ => ⟨S50000, .i32⟩
  | .hbm, ⟨20, _⟩ => ⟨S50000, .i32⟩
  | .hbm, ⟨21, _⟩ => ⟨S50000x1, .i32⟩
  | .hbm, ⟨22, _⟩ => ⟨S50000x64, .f32⟩
  | .hbm, ⟨23, _⟩ => ⟨S129x128, .f32⟩
  | .hbm, ⟨24, _⟩ => ⟨S64x128, .f32⟩
  | .hbm, ⟨25, _⟩ => ⟨S1x128, .f32⟩
  | .hbm, ⟨26, _⟩ => ⟨S64x128, .f32⟩
  | .hbm, ⟨27, _⟩ => ⟨S50000x32x128, .f32⟩
  | .local _ .vmem, ⟨0, _⟩ => ⟨S200x32x64, .f32⟩
  | .local _ .vmem, ⟨1, _⟩ => ⟨S200x32x64, .f32⟩
  | .local _ .vmem, ⟨2, _⟩ => ⟨S200x64, .f32⟩
  | .local _ .vmem, ⟨3, _⟩ => ⟨S200x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S200x32x128, .f32⟩
  | .local _ .vmem, ⟨8, _⟩ => ⟨S200x32x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![250], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S200x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S200x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  slices_S50000x32_S50000x1_0_0 : S50000x32.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  transposes_S128x129_S129x128_1_0 : S128x129.Transposes [1, 0] S129x128
  slices_S129x128_S64x128_0_0 : S129x128.Slices ![0, 0] S64x128
  slices_S129x128_S1x128_64_0 : S129x128.Slices ![64, 0] S1x128
  slices_S129x128_S64x128_65_0 : S129x128.Slices ![65, 0] S64x128
  inb_S200x32x64_S200x32x64_0_0_0 : ∀ a, (![0, 0, 0] : Fin 3 → Nat) a + S200x32x64.size a ≤ S200x32x64.size a
  h_S200x32x64 : 0 < S200x32x64.numel
  shapeCasts_S200x32x64_S200x32x64 : S200x32x64.ShapeCasts S200x32x64
  inb_S200x64_S200x64_0_0 : ∀ a, (![0, 0] : Fin 2 → Nat) a + S200x64.size a ≤ S200x64.size a
  h_S200x64 : 0 < S200x64.numel
  shapeCasts_S200x64_S200x64 : S200x64.ShapeCasts S200x64
  shapeCasts_S200x64_S200x1x64 : S200x64.ShapeCasts S200x1x64
  broadcasts_S200x1x64_S200x32x64 : S200x1x64.Broadcasts S200x32x64
  reduces_S200x32x64_S200x32 : S200x32x64.Reduces [2] S200x32
  shapeCasts_S200x32_S200x32x1 : S200x32.ShapeCasts S200x32x1
  shapeCasts_S200x32x64_S6400x64 : S200x32x64.ShapeCasts S6400x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S6400x128_S200x32x128 : S6400x128.ShapeCasts S200x32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  broadcasts_S200x32x1_S200x32x128 : S200x32x1.Broadcasts S200x32x128
  broadcasts_S1x1x128_S200x32x128 : S1x1x128.Broadcasts S200x32x128
  shapeCasts_S200x128_S200x1x128 : S200x128.ShapeCasts S200x1x128
  broadcasts_S200x1x128_S200x32x128 : S200x1x128.Broadcasts S200x32x128
  inb_S200x32x128_S200x32x128_0_0_0 : ∀ a, (![0, 0, 0] : Fin 3 → Nat) a + S200x32x128.size a ≤ S200x32x128.size a
  h_S200x32x128 : 0 < S200x32x128.numel
  gather_S50000x64_S50000x32x1_S50000x32x64_2_0_n_n_0_2_164_wf : GatherDims.WF S50000x64 S50000x32x1 S50000x32x64 [2] [0] [] [0] [] 2 ![1, 64]
  gather_S50000x64_S50000x1_S50000x64_1_0_n_n_0_1_164_wf : GatherDims.WF S50000x64 S50000x1 S50000x64 [1] [0] [] [0] [] 1 ![1, 64]
  dot_S6400x64_S64x128_S6400x128_1_0_0_1_n_n_wf : DotDims.WF S6400x64 S64x128 S6400x128 [1] [0] [0] [1] [] []
  dot_S200x64_S64x128_S200x128_1_0_0_1_n_n_wf : DotDims.WF S200x64 S64x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x32x64.size a ≤ S50000x32x64.size a
  hwx0_0 : ∀ i : grid0.Coords, EltTy.bits .f32 = 32 ∨ (Rect.block (s := S50000x32x64) S200x32x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x64.size a ≤ S50000x64.size a
  hwx0_1 : ∀ i : grid0.Coords, EltTy.bits .f32 = 32 ∨ (Rect.block (s := S50000x64) S200x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x32x128.size a ≤ S50000x32x128.size a
  hwx0_5 : ∀ i : grid0.Coords, EltTy.bits .f32 = 32 ∨ (Rect.block (s := S50000x32x128) S200x32x128.size (cc0_transform_5 i) (hinb0_5 i)).WholeWords (EltTy.packing .f32)

variable [Facts₀]

def gather_S50000x64_S50000x32x1_S50000x32x64_2_0_n_n_0_2_164 : GatherDims S50000x64 S50000x32x1 S50000x32x64 where
  offsetDims := [2]
  collapsedSliceDims := [0]
  operandBatchingDims := []
  startIndicesBatchingDims := []
  startIndexMap := [0]
  indexVectorDim := 2
  sliceSizes := ![1, 64]
  wf := gather_S50000x64_S50000x32x1_S50000x32x64_2_0_n_n_0_2_164_wf
def gather_S50000x64_S50000x1_S50000x64_1_0_n_n_0_1_164 : GatherDims S50000x64 S50000x1 S50000x64 where
  offsetDims := [1]
  collapsedSliceDims := [0]
  operandBatchingDims := []
  startIndicesBatchingDims := []
  startIndexMap := [0]
  indexVectorDim := 1
  sliceSizes := ![1, 64]
  wf := gather_S50000x64_S50000x1_S50000x64_1_0_n_n_0_1_164_wf
def dot_S6400x64_S64x128_S6400x128_1_0_0_1_n_n : DotDims S6400x64 S64x128 S6400x128 where
  lhsContracting := [1]
  rhsContracting := [0]
  lhsNonContracting := [0]
  rhsNonContracting := [1]
  lhsBatch := []
  rhsBatch := []
  wf := dot_S6400x64_S64x128_S6400x128_1_0_0_1_n_n_wf
def dot_S200x64_S64x128_S200x128_1_0_0_1_n_n : DotDims S200x64 S64x128 S200x128 where
  lhsContracting := [1]
  rhsContracting := [0]
  lhsNonContracting := [0]
  rhsNonContracting := [1]
  lhsBatch := []
  rhsBatch := []
  wf := dot_S200x64_S64x128_S200x128_1_0_0_1_n_n_wf

abbrev win0_0 : Pipeline.Window sig grid0 :=
  Pipeline.Window.ofSpec (Memref.whole main_v6) S200x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S200x32x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x64 : Shape := ⟨2, ![50000, 64]⟩
abbrev S50000x32 : Shape := ⟨2, ![50000, 32]⟩
abbrev S128x129 : Shape := ⟨2, ![128, 129]⟩
abbrev S_ : Shape := ⟨0, ![]⟩
abbrev S50000x32x1 : Shape := ⟨3, ![50000, 32, 1]⟩
abbrev S50000x32x64 : Shape := ⟨3, ![50000, 32, 64]⟩
abbrev S50000x1 : Shape := ⟨2, ![50000, 1]⟩
abbrev S50000 : Shape := ⟨1, ![50000]⟩
abbrev S50000x1x64 : Shape := ⟨3, ![50000, 1, 64]⟩
abbrev S50000x32x129 : Shape := ⟨3, ![50000, 32, 129]⟩
abbrev S50000x32x128 : Shape := ⟨3, ![50000, 32, 128]⟩

abbrev nBuf : Space → Nat
  | .hbm => 35
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x32, .i32⟩
  | .hbm, ⟨2, _⟩ => ⟨S128x129, .f32⟩
  | .hbm, ⟨3, _⟩ => ⟨S_, .i32⟩
  | .hbm, ⟨4, _⟩ => ⟨S50000x32, .i32⟩
  | .hbm, ⟨5, _⟩ => ⟨S50000x32, .i1⟩
  | .hbm, ⟨6, _⟩ => ⟨S_, .i32⟩
  | .hbm, ⟨7, _⟩ => ⟨S50000x32, .i32⟩
  | .hbm, ⟨8, _⟩ => ⟨S50000x32, .i32⟩
  | .hbm, ⟨9, _⟩ => ⟨S50000x32, .i32⟩
  | .hbm, ⟨10, _⟩ => ⟨S50000x32x1, .i32⟩
  | .hbm, ⟨11, _⟩ => ⟨S50000x32x64, .f32⟩
  | .hbm, ⟨12, _⟩ => ⟨S50000x1, .i32⟩
  | .hbm, ⟨13, _⟩ => ⟨S50000, .i32⟩
  | .hbm, ⟨14, _⟩ => ⟨S_, .i32⟩
  | .hbm, ⟨15, _⟩ => ⟨S50000, .i32⟩
  | .hbm, ⟨16, _⟩ => ⟨S50000, .i1⟩
  | .hbm, ⟨17, _⟩ => ⟨S_, .i32⟩
  | .hbm, ⟨18, _⟩ => ⟨S50000, .i32⟩
  | .hbm, ⟨19, _⟩ => ⟨S50000, .i32⟩
  | .hbm, ⟨20, _⟩ => ⟨S50000, .i32⟩
  | .hbm, ⟨21, _⟩ => ⟨S50000x1, .i32⟩
  | .hbm, ⟨22, _⟩ => ⟨S50000x64, .f32⟩
  | .hbm, ⟨23, _⟩ => ⟨S50000x1x64, .f32⟩
  | .hbm, ⟨24, _⟩ => ⟨S_, .f32⟩
  | .hbm, ⟨25, _⟩ => ⟨S50000x32, .f32⟩
  | .hbm, ⟨26, _⟩ => ⟨S50000x32x1, .f32⟩
  | .hbm, ⟨27, _⟩ => ⟨S_, .f32⟩
  | .hbm, ⟨28, _⟩ => ⟨S50000x32x1, .f32⟩
  | .hbm, ⟨29, _⟩ => ⟨S50000x32x1, .f32⟩
  | .hbm, ⟨30, _⟩ => ⟨S50000x32x64, .f32⟩
  | .hbm, ⟨31, _⟩ => ⟨S50000x32x64, .f32⟩
  | .hbm, ⟨32, _⟩ => ⟨S50000x32x64, .f32⟩
  | .hbm, ⟨33, _⟩ => ⟨S50000x32x129, .f32⟩
  | .hbm, ⟨34, _⟩ => ⟨S50000x32x128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  slices_S50000x32_S50000x1_0_0 : S50000x32.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x64_S50000x1x64_0_2 : S50000x64.BroadcastsInDim S50000x1x64 (![0, 2] : Fin 2 → Fin S50000x1x64.rank)
  reducesTo_S50000x32x64_S50000x32_d2 : S50000x32x64.ReducesTo [2] S50000x32
  h_S_ : 0 < S_.numel
  bcast_S_S50000x32x1 : S_.BroadcastsInDim S50000x32x1 (![] : Fin 0 → Fin S50000x32x1.rank)
  bcast_S50000x1x64_S50000x32x64_0_1_2 : S50000x1x64.BroadcastsInDim S50000x32x64 (![0, 1, 2] : Fin 3 → Fin S50000x32x64.rank)
  concatenates_S50000x32x64_S50000x32x1_S50000x32x64_S50000x32x129_d2 : Shape.Concatenates [S50000x32x64, S50000x32x1, S50000x32x64] S50000x32x129 2
  gather_S50000x64_S50000x32x1_S50000x32x64_2_0_n_n_0_2_164_wf : GatherDims.WF S50000x64 S50000x32x1 S50000x32x64 [2] [0] [] [0] [] 2 ![1, 64]
  gather_S50000x64_S50000x1_S50000x64_1_0_n_n_0_1_164_wf : GatherDims.WF S50000x64 S50000x1 S50000x64 [1] [0] [] [0] [] 1 ![1, 64]
  dot_S50000x32x129_S128x129_S50000x32x128_2_1_01_0_n_n_wf : DotDims.WF S50000x32x129 S128x129 S50000x32x128 [2] [1] [0, 1] [0] [] []

variable [Facts₀]

def gather_S50000x64_S50000x32x1_S50000x32x64_2_0_n_n_0_2_164 : GatherDims S50000x64 S50000x32x1 S50000x32x64 where
  offsetDims := [2]
  collapsedSliceDims := [0]
  operandBatchingDims := []
  startIndicesBatchingDims := []
  startIndexMap := [0]
  indexVectorDim := 2
  sliceSizes := ![1, 64]
  wf := gather_S50000x64_S50000x32x1_S50000x32x64_2_0_n_n_0_2_164_wf
def gather_S50000x64_S50000x1_S50000x64_1_0_n_n_0_1_164 : GatherDims S50000x64 S50000x1 S50000x64 where
  offsetDims := [1]
  collapsedSliceDims := [0]
  operandBatchingDims := []
  startIndicesBatchingDims := []
  startIndexMap := [0]
  indexVectorDim := 1
  sliceSizes := ![1, 64]
  wf := gather_S50000x64_S50000x1_S50000x64_1_0_n_n_0_1_164_wf
def dot_S50000x32x129_S128x129_S50000x32x128_2_1_01_0_n_n : DotDims S50000x32x129 S128x129 S50000x32x128 where
  lhsContracting := [2]
  rhsContracting := [1]
  lhsNonContracting := [0, 1]
  rhsNonContracting := [0]
  lhsBatch := []
  rhsBatch := []
  wf := dot_S50000x32x129_S128x129_S50000x32x128_2_1_01_0_n_n_wf

class Facts : Prop extends Facts₀ where

variable [Facts]
-- ==== Proof.BlockLayout.lean ====
/-
  The re-layouts inside one block of 200 points, read at an index.

  A block holds 200 points, each with 32 neighbour slots.  The body flattens (point, slot) to one row index
  `point * 32 + slot` for the matrix product and unflattens the product, gives a per-point array a unit slot
  axis and repeats it over the 32 slots, gives a per-(point, slot) array a unit channel axis and repeats it
  over the 128 output channels, and repeats one weight row over every point and slot.  Each lemma says which
  element of the operand such a re-layout reads; the arithmetic is that of row-major positions.  Also here:
  a sum along the last axis and the two matrix products as plain sums over the 64 contracted channels.
-/
import proofs.«151762_j61272003445297_1_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.BlockLayout

open Cert.KernelIdeal Idealize.ShloMosaic Idealize.ShloMosaic.ValueIdx

variable {α : Type}

/-- Row `p * 32 + q` of the flattened block. -/
abbrev flatRow (p : Fin 200) (q : Fin 32) : Fin 6400 := ⟨p.val * 32 + q.val, by omega⟩

/-- A per-point array given a unit slot axis reads the point's entry. -/
theorem unitSlot64_apply (v : S200x64.Idx → α) (h : S200x64.ShapeCasts S200x1x64) (p : Fin 200) (z : Fin 1) (d : Fin 64) :
    shapeCast S200x1x64 v h (ix3 p z d) = v (ix2 p d) :=
  shapeCast_apply v h _ _ (by
    rw [Shape.rowMajor_val_two, Shape.rowMajor_val_three]
    show p.val * 64 + d.val = (p.val * 1 + z.val) * 64 + d.val
    have := z.isLt; omega)

/-- The same with 128 channels. -/
theorem unitSlot128_apply (v : S200x128.Idx → α) (h : S200x128.ShapeCasts S200x1x128) (p : Fin 200) (z : Fin 1) (o : Fin 128) :
    shapeCast S200x1x128 v h (ix3 p z o) = v (ix2 p o) :=
  shapeCast_apply v h _ _ (by
    rw [Shape.rowMajor_val_two, Shape.rowMajor_val_three]
    show p.val * 128 + o.val = (p.val * 1 + z.val) * 128 + o.val
    have := z.isLt; omega)

/-- A unit slot axis repeated over the 32 slots reads slot 0. -/
theorem overSlots64_apply (v : S200x1x64.Idx → α) (h : S200x1x64.Broadcasts S200x32x64) (p : Fin 200) (q : Fin 32) (d : Fin 64) :
    broadcastTo S200x32x64 v h (ix3 p q d) = v (ix3 p 0 d) :=
  broadcastTo_apply v h _ _ (fun a => match a with
    | ⟨0, _⟩ => by show p.val = if (200 : ℕ) = 1 then 0 else p.val; rw [if_neg (by decide)]
    | ⟨1, _⟩ => by show (0 : ℕ) = if (1 : ℕ) = 1 then 0 else q.val; rw [if_pos rfl]
    | ⟨2, _⟩ => by show d.val = if (64 : ℕ) = 1 then 0 else d.val; rw [if_neg (by decide)])

/-- The same with 128 channels. -/
theorem overSlots128_apply (v : S200x1x128.Idx → α) (h : S200x1x128.Broadcasts S200x32x128) (p : Fin 200) (q : Fin 32) (o : Fin 128) :
    broadcastTo S200x32x128 v h (ix3 p q o) = v (ix3 p 0 o) :=
  broadcastTo_apply v h _ _ (fun a => match a with
    | ⟨0, _⟩ => by show p.val = if (200 : ℕ) = 1 then 0 else p.val; rw [if_neg (by decide)]
    | ⟨1, _⟩ => by show (0 : ℕ) = if (1 : ℕ) = 1 then 0 else q.val; rw [if_pos rfl]
    | ⟨2, _⟩ => by show o.val = if (128 : ℕ) = 1 then 0 else o.val; rw [if_neg (by decide)])

/-- A per-(point, slot) array given a unit channel axis reads the pair's entry. -/
theorem unitChannel_apply (v : S200x32.Idx → α) (h : S200x32.ShapeCasts S200x32x1) (p : Fin 200) (q : Fin 32) (z : Fin 1) :
    shapeCast S200x32x1 v h (ix3 p q z) = v (ix2 p q) :=
  shapeCast_apply v h _ _ (by
    rw [Shape.rowMajor_val_two, Shape.rowMajor_val_three]
    show p.val * 32 + q.val = (p.val * 32 + q.val) * 1 + z.val
    have := z.isLt; omega)

/-- A unit channel axis repeated over the 128 output channels reads channel 0. -/
theorem overChannels_apply (v : S200x32x1.Idx → α) (h : S200x32x1.Broadcasts S200x32x128) (p : Fin 200) (q : Fin 32) (o : Fin 128) :
    broadcastTo S200x32x128 v h (ix3 p q o) = v (ix3 p q 0) :=
  broadcastTo_apply v h _ _ (fun a => match a with
    | ⟨0, _⟩ => by show p.val = if (200 : ℕ) = 1 then 0 else p.val; rw [if_neg (by decide)]
    | ⟨1, _⟩ => by show q.val = if (32 : ℕ) = 1 then 0 else q.val; rw [if_neg (by decide)]
    | ⟨2, _⟩ => by show (0 : ℕ) = if (1 : ℕ) = 1 then 0 else o.val; rw [if_pos rfl])

/-- One weight row given a second unit axis reads the same entry. -/
theorem rowUnit_apply (v : S1x128.Idx → α) (h : S1x128.ShapeCasts S1x1x128) (z z' : Fin 1) (o : Fin 128) :
    shapeCast S1x1x128 v h (ix3 z z' o) = v (ix2 0 o) :=
  shapeCast_apply v h _ _ (by
    rw [Shape.rowMajor_val_two, Shape.rowMajor_val_three]
    show (0 : ℕ) * 128 + o.val = (z.val * 1 + z'.val) * 128 + o.val
    have := z.isLt; have := z'.isLt; omega)

/-- One weight row repeated over every point and slot. -/
theorem overPoints_apply (v : S1x1x128.Idx → α) (h : S1x1x128.Broadcasts S200x32x128) (p : Fin 200) (q : Fin 32) (o : Fin 128) :
    broadcastTo S200x32x128 v h (ix3 p q o) = v (ix3 0 0 o) :=
  broadcastTo_apply v h _ _ (fun a => match a with
    | ⟨0, _⟩ => by show (0 : ℕ) = if (1 : ℕ) = 1 then 0 else p.val; rw [if_pos rfl]
    | ⟨1, _⟩ => by show (0 : ℕ) = if (1 : ℕ) = 1 then 0 else q.val; rw [if_pos rfl]
    | ⟨2, _⟩ => by show o.val = if (128 : ℕ) = 1 then 0 else o.val; rw [if_neg (by decide)])

/-- Flattening (point, slot) to rows: row `p * 32 + q` reads (p, q). -/
theorem flatten_apply (v : S200x32x64.Idx → α) (h : S200x32x64.ShapeCasts S6400x64) (p : Fin 200) (q : Fin 32) (d : Fin 64) :
    shapeCast S6400x64 v h (ix2 (flatRow p q) d) = v (ix3 p q d) :=
  shapeCast_apply v h _ _ (by
    rw [Shape.rowMajor_val_two, Shape.rowMajor_val_three]
    show (p.val * 32 + q.val) * 64 + d.val = (p.val * 32 + q.val) * 64 + d.val
    rfl)

/-- Unflattening rows to (point, slot): (p, q) reads row `p * 32 + q`. -/
theorem unflatten_apply (v : S6400x128.Idx → α) (h : S6400x128.ShapeCasts S200x32x128) (p : Fin 200) (q : Fin 32) (o : Fin 128) :
    shapeCast S200x32x128 v h (ix3 p q o) = v (ix2 (flatRow p q) o) :=
  shapeCast_apply v h _ _ (by
    rw [Shape.rowMajor_val_two, Shape.rowMajor_val_three]
    show (p.val * 32 + q.val) * 128 + o.val = (p.val * 32 + q.val) * 128 + o.val
    rfl)

/-- The sum along the last axis of a block, at a (point, slot) pair. -/
theorem sumChannels_apply (v : FVec Ideal S200x32x64 .f32) (acc : BitVec FTy.f32.bits) (h : S200x32x64.Reduces [2] S200x32)
    (hφ : FKind.Formats .f32) (hacc : acc = FKind.add.neutral .f32 hφ) (p : Fin 200) (q : Fin 32) :
    multiReduction .add [2] S200x32 v acc h hφ hacc (ix2 p q) = ∑ d : Fin 64, v (ix3 p q d) :=
  (Ideal.multiReduction_add_single v acc h hφ hacc (ix2 p q)).trans
    (Finset.sum_congr rfl fun d _ => congrArg v (funext fun a => Fin.ext (by
      match a with
      | ⟨0, _⟩ => rfl
      | ⟨1, _⟩ => rfl
      | ⟨2, _⟩ => rfl)))

end Cert.KernelIdeal.BlockLayout

end
-- ==== Proof.BlockProducts.lean ====
/-
  The two matrix products of the body as plain sums.

  Over the extended reals a matrix product into a zero accumulator is, at (row, channel), the sum over the
  contracted axis of the products of the operands' entries — no rounding, no order.  Both products of the body
  contract 64 channels: the flattened differences (6400 rows) against the first weight piece, and the centre
  features (200 rows) against the last.  The lemmas re-index the sum from the product's own contraction index
  to `Fin 64`.
-/
import proofs.«151762_j61272003445297_1_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.BlockProducts

open Cert.KernelIdeal Idealize.ShloMosaic Idealize.ShloMosaic.ValueIdx

variable [Facts]

theorem rowsProduct_lhs0 (i : S6400x128.Idx) (k : dot_S6400x64_S64x128_S6400x128_1_0_0_1_n_n.contr.Idx) :
    (dot_S6400x64_S64x128_S6400x128_1_0_0_1_n_n.lhsIdx i k 0).val = (i 0).val := by
  unfold DotDims.lhsIdx
  rw [dif_neg (show ¬(0 : Fin S6400x64.rank) ∈ dot_S6400x64_S64x128_S6400x128_1_0_0_1_n_n.lhsBatch by decide), dif_pos (show (0 : Fin S6400x64.rank) ∈ dot_S6400x64_S64x128_S6400x128_1_0_0_1_n_n.lhsNonContracting by decide)]
  rfl
theorem rowsProduct_lhs1 (i : S6400x128.Idx) (k : dot_S6400x64_S64x128_S6400x128_1_0_0_1_n_n.contr.Idx) :
    (dot_S6400x64_S64x128_S6400x128_1_0_0_1_n_n.lhsIdx i k 1).val = (k ⟨0, by decide⟩).val :=
  dot_S6400x64_S64x128_S6400x128_1_0_0_1_n_n.lhsIdx_val_of_single rfl i k
theorem rowsProduct_rhs0 (i : S6400x128.Idx) (k : dot_S6400x64_S64x128_S6400x128_1_0_0_1_n_n.contr.Idx) :
    (dot_S6400x64_S64x128_S6400x128_1_0_0_1_n_n.rhsIdx i k 0).val = (k ⟨0, by decide⟩).val :=
  dot_S6400x64_S64x128_S6400x128_1_0_0_1_n_n.rhsIdx_val_of_single rfl i k
theorem rowsProduct_rhs1 (i : S6400x128.Idx) (k : dot_S6400x64_S64x128_S6400x128_1_0_0_1_n_n.contr.Idx) :
    (dot_S6400x64_S64x128_S6400x128_1_0_0_1_n_n.rhsIdx i k 1).val = (i 1).val := by
  unfold DotDims.rhsIdx
  rw [dif_neg (show ¬(1 : Fin S64x128.rank) ∈ dot_S6400x64_S64x128_S6400x128_1_0_0_1_n_n.rhsBatch by decide), dif_pos (show (1 : Fin S64x128.rank) ∈ dot_S6400x64_S64x128_S6400x128_1_0_0_1_n_n.rhsNonContracting by decide)]
  rfl

/-- The product into a zero accumulator, at (row, channel): the sum over the 64 contracted channels. -/
theorem rowsProduct_apply (l : FVec Ideal S6400x64 .bf16) (r : FVec Ideal S64x128 .bf16) (i : Fin 6400) (o : Fin 128) :
    matmul dot_S6400x64_S64x128_S6400x128_1_0_0_1_n_n none l r (constant S6400x128 .f32 0x00000000#32) (ix2 i o)
      = ∑ d : Fin 64, l (ix2 i d) * r (ix2 d o) := by
  simp only [matmul]
  rw [Ideal.matmul_constant_zero_apply, ← Equiv.sum_comp (ValueIdx.contrEquiv1 dot_S6400x64_S64x128_S6400x128_1_0_0_1_n_n 64 rfl rfl).symm]
  refine Finset.sum_congr rfl fun d _ => ?_
  have hd := ValueIdx.contrEquiv1_symm_val dot_S6400x64_S64x128_S6400x128_1_0_0_1_n_n 64 rfl rfl d
  have el : dot_S6400x64_S64x128_S6400x128_1_0_0_1_n_n.lhsIdx (ix2 i o) ((ValueIdx.contrEquiv1 dot_S6400x64_S64x128_S6400x128_1_0_0_1_n_n 64 rfl rfl).symm d) = ix2 i d := funext fun a => Fin.ext (by
    match a with
    | ⟨0, _⟩ => exact rowsProduct_lhs0 _ _
    | ⟨1, _⟩ => exact (rowsProduct_lhs1 _ _).trans hd)
  have er : dot_S6400x64_S64x128_S6400x128_1_0_0_1_n_n.rhsIdx (ix2 i o) ((ValueIdx.contrEquiv1 dot_S6400x64_S64x128_S6400x128_1_0_0_1_n_n 64 rfl rfl).symm d) = ix2 d o := funext fun a => Fin.ext (by
    match a with
    | ⟨0, _⟩ => exact (rowsProduct_rhs0 _ _).trans hd
    | ⟨1, _⟩ => exact rowsProduct_rhs1 _ _)
  rw [el, er]

theorem pointsProduct_lhs0 (i : S200x128.Idx) (k : dot_S200x64_S64x128_S200x128_1_0_0_1_n_n.contr.Idx) :
    (dot_S200x64_S64x128_S200x128_1_0_0_1_n_n.lhsIdx i k 0).val = (i 0).val := by
  unfold DotDims.lhsIdx
  rw [dif_neg (show ¬(0 : Fin S200x64.rank) ∈ dot_S200x64_S64x128_S200x128_1_0_0_1_n_n.lhsBatch by decide), dif_pos (show (0 : Fin S200x64.rank) ∈ dot_S200x64_S64x128_S200x128_1_0_0_1_n_n.lhsNonContracting by decide)]
  rfl
theorem pointsProduct_lhs1 (i : S200x128.Idx) (k : dot_S200x64_S64x128_S200x128_1_0_0_1_n_n.contr.Idx) :
    (dot_S200x64_S64x128_S200x128_1_0_0_1_n_n.lhsIdx i k 1).val = (k ⟨0, by decide⟩).val :=
  dot_S200x64_S64x128_S200x128_1_0_0_1_n_n.lhsIdx_val_of_single rfl i k
theorem pointsProduct_rhs0 (i : S200x128.Idx) (k : dot_S200x64_S64x128_S200x128_1_0_0_1_n_n.contr.Idx) :
    (dot_S200x64_S64x128_S200x128_1_0_0_1_n_n.rhsIdx i k 0).val = (k ⟨0, by decide⟩).val :=
  dot_S200x64_S64x128_S200x128_1_0_0_1_n_n.rhsIdx_val_of_single rfl i k
theorem pointsProduct_rhs1 (i : S200x128.Idx) (k : dot_S200x64_S64x128_S200x128_1_0_0_1_n_n.contr.Idx) :
    (dot_S200x64_S64x128_S200x128_1_0_0_1_n_n.rhsIdx i k 1).val = (i 1).val := by
  unfold DotDims.rhsIdx
  rw [dif_neg (show ¬(1 : Fin S64x128.rank) ∈ dot_S200x64_S64x128_S200x128_1_0_0_1_n_n.rhsBatch by decide), dif_pos (show (1 : Fin S64x128.rank) ∈ dot_S200x64_S64x128_S200x128_1_0_0_1_n_n.rhsNonContracting by decide)]
  rfl

/-- The product into a zero accumulator, at (row, channel): the sum over the 64 contracted channels. -/
theorem pointsProduct_apply (l : FVec Ideal S200x64 .bf16) (r : FVec Ideal S64x128 .bf16) (i : Fin 200) (o : Fin 128) :
    matmul dot_S200x64_S64x128_S200x128_1_0_0_1_n_n none l r (constant S200x128 .f32 0x00000000#32) (ix2 i o)
      = ∑ d : Fin 64, l (ix2 i d) * r (ix2 d o) := by
  simp only [matmul]
  rw [Ideal.matmul_constant_zero_apply, ← Equiv.sum_comp (ValueIdx.contrEquiv1 dot_S200x64_S64x128_S200x128_1_0_0_1_n_n 64 rfl rfl).symm]
  refine Finset.sum_congr rfl fun d _ => ?_
  have hd := ValueIdx.contrEquiv1_symm_val dot_S200x64_S64x128_S200x128_1_0_0_1_n_n 64 rfl rfl d
  have el : dot_S200x64_S64x128_S200x128_1_0_0_1_n_n.lhsIdx (ix2 i o) ((ValueIdx.contrEquiv1 dot_S200x64_S64x128_S200x128_1_0_0_1_n_n 64 rfl rfl).symm d) = ix2 i d := funext fun a => Fin.ext (by
    match a with
    | ⟨0, _⟩ => exact pointsProduct_lhs0 _ _
    | ⟨1, _⟩ => exact (pointsProduct_lhs1 _ _).trans hd)
  have er : dot_S200x64_S64x128_S200x128_1_0_0_1_n_n.rhsIdx (ix2 i o) ((ValueIdx.contrEquiv1 dot_S200x64_S64x128_S200x128_1_0_0_1_n_n 64 rfl rfl).symm d) = ix2 d o := funext fun a => Fin.ext (by
    match a with
    | ⟨0, _⟩ => exact (pointsProduct_rhs0 _ _).trans hd
    | ⟨1, _⟩ => exact pointsProduct_rhs1 _ _)
  rw [el, er]

end Cert.KernelIdeal.BlockProducts

end
-- ==== Proof.BodyValue.lean ====
/-
  What the body stores at entry (p, q, o) of its block, as a formula of the five input blocks.

  With `x0` the block of neighbour features [200, 32, 64], `x1` the block of centre features [200, 64] and
  `x2`, `x3`, `x4` the three weight pieces [64, 128], [1, 128], [64, 128], the stored value is

    Σ_d (x0 p q d - x1 p d) · x2 d o  +  (Σ_d x0 p q d) / 64 · x3 0 o  +  Σ_d x1 p d · x4 d o.

  Over the extended reals the narrowing of a product's operands to a shorter float format is the identity, a
  product into a zero accumulator is a plain sum, and a lane sum from a zero accumulator is a plain sum; the
  rest is reading each re-layout at the index.
-/
import proofs.«151762_j61272003445297_1_alg».proof.Proof.Gen.KernelIdeal.Skeleton
import proofs.«151762_j61272003445297_1_alg».proof.Proof.BlockLayout
import proofs.«151762_j61272003445297_1_alg».proof.Proof.BlockProducts

noncomputable section

namespace Cert.KernelIdeal.BodyValue

open Cert.KernelIdeal Cert.KernelIdeal.Gen Idealize.ShloMosaic Idealize.ShloMosaic.ValueIdx
open Cert.KernelIdeal.BlockLayout Cert.KernelIdeal.BlockProducts

/-- The stored value at (p, q, o). -/
theorem payload_apply (x0 : FVec Ideal S200x32x64 .f32) (x1 : FVec Ideal S200x64 .f32) (x2 : FVec Ideal S64x128 .f32)
    (x3 : FVec Ideal S1x128 .f32) (x4 : FVec Ideal S64x128 .f32) (p : Fin 200) (q : Fin 32) (o : Fin 128) :
    k0_pay1 (F := Ideal) x0 x1 x2 x3 x4 (ix3 p q o)
      = (∑ d : Fin 64, (x0 (ix3 p q d) - x1 (ix2 p d)) * x2 (ix2 d o))
        + Ideal.div (∑ d : Fin 64, x0 (ix3 p q d)) (Ideal.ofBits .f32 0x42800000#32) * x3 (ix2 0 o)
        + ∑ d : Fin 64, x1 (ix2 p d) * x4 (ix2 d o) := by
  unfold k0_pay1
  refine (addf_apply _ _ _).trans (congrArg₂ (· + ·) ((addf_apply _ _ _).trans (congrArg₂ (· + ·) ?_ ?_)) ?_)
  · -- the differences against the first weight piece
    refine (unflatten_apply _ _ p q o).trans ?_
    refine (rowsProduct_apply _ _ (flatRow p q) o).trans ?_
    refine Finset.sum_congr rfl fun d _ => congrArg₂ (· * ·) ?_ ?_
    · refine (truncf_apply (φ := .f32) (ψ := .bf16) _ _ _).trans ?_
      refine (flatten_apply _ _ p q d).trans ?_
      refine (subf_apply _ _ _).trans (congrArg₂ (· - ·) ?_ ?_)
      · exact congrFun (shapeCast_self _ _) _
      · refine (overSlots64_apply _ _ p q d).trans ?_
        refine (unitSlot64_apply _ _ p 0 d).trans ?_
        exact congrFun (shapeCast_self _ _) _
    · refine (truncf_apply (φ := .f32) (ψ := .bf16) _ _ _).trans ?_
      exact congrFun (shapeCast_self _ _) _
  · -- the mean against the middle weight row
    refine (mulf_apply _ _ _).trans (congrArg₂ (· * ·) ?_ ?_)
    · refine (overChannels_apply _ _ p q o).trans ?_
      refine (divf_apply _ _ _).trans (congrArg₂ Ideal.div ?_ rfl)
      refine (unitChannel_apply _ _ p q 0).trans ?_
      refine (sumChannels_apply _ _ _ _ _ p q).trans ?_
      exact Finset.sum_congr rfl fun d _ => congrFun (shapeCast_self _ _) _
    · refine (overPoints_apply _ _ p q o).trans ?_
      refine (rowUnit_apply _ _ 0 0 o).trans ?_
      exact congrFun (shapeCast_self _ _) _
  · -- the centre features against the last weight piece
    refine (overSlots128_apply _ _ p q o).trans ?_
    refine (unitSlot128_apply _ _ p 0 o).trans ?_
    refine (pointsProduct_apply _ _ p o).trans ?_
    refine Finset.sum_congr rfl fun d _ => congrArg₂ (· * ·) ?_ ?_
    · refine (truncf_apply (φ := .f32) (ψ := .bf16) _ _ _).trans ?_
      exact congrFun (shapeCast_self _ _) _
    · refine (truncf_apply (φ := .f32) (ψ := .bf16) _ _ _).trans ?_
      exact congrFun (shapeCast_self _ _) _

end Cert.KernelIdeal.BodyValue

end
-- ==== Proof.CenterDiffSpec.lean ====
/-
  Neighbour features through a pointwise linear layer, as one function of three arrays.

  For a point `n`, a neighbour slot `k` and an output channel `o` the layer's input row has 129 channels:
  the 64 differences `feat n k d - ctr n d`, then the mean of the neighbour's 64 features, then the 64 features
  of the centre point.  The layer multiplies that row by row `o` of the weight matrix `W : [128, 129]`.
  Since the 129 channels are three consecutive stretches (64, 1, 64), the one sum over 129 channels is the sum
  of three shorter ones; only the grouping of a finite sum changes, so the identity holds in any additive
  commutative monoid — in particular on the extended reals, infinities included.
-/
import Idealize.ShloMosaic.PureOps.Ideal
import Idealize.ShloMosaic.Lib.ValueIdx

noncomputable section

namespace Cert.CenterDiff

open Idealize.ShloMosaic Idealize.ShloMosaic.ValueIdx

/-- A sum over 129 consecutive channels is the sum over the first 64, the 65th, and the last 64. -/
theorem sum_split_129 {M : Type*} [AddCommMonoid M] (f : Fin 129 → M) :
    ∑ k : Fin 129, f k
      = (∑ d : Fin 64, f ⟨d.val, by omega⟩) + f ⟨64, by omega⟩ + ∑ d : Fin 64, f ⟨65 + d.val, by omega⟩ := by
  have h1 : ∑ k : Fin 129, f k
      = ∑ i : Fin 65, f (Fin.castAdd 64 i) + ∑ d : Fin 64, f (Fin.natAdd 65 d) :=
    Fin.sum_univ_add (a := 65) (b := 64) f
  have h2 : ∑ i : Fin 65, f (Fin.castAdd 64 i)
      = ∑ d : Fin 64, f (Fin.castAdd 64 (Fin.castSucc d)) + f (Fin.castAdd 64 (Fin.last 64)) :=
    Fin.sum_univ_castSucc (n := 64) (fun i : Fin 65 => f (Fin.castAdd 64 i))
  rw [h1, h2]
  rfl

/-- The arrays' shapes: gathered neighbour features, gathered centre features, weights, result. -/
abbrev ShFeat : Shape := ⟨3, ![50000, 32, 64]⟩
abbrev ShCtr : Shape := ⟨2, ![50000, 64]⟩
abbrev ShW : Shape := ⟨2, ![128, 129]⟩
abbrev ShOut : Shape := ⟨3, ![50000, 32, 128]⟩

/-- The value 64 as both programs spell it. -/
abbrev c64 : EReal := Ideal.ofBits .f32 0x42800000#32

/-- Column `j` of weight row `o`. -/
abbrev wAt (W : ShW.Idx → EReal) (o : Fin 128) (j : ℕ) (hj : j < 129) : EReal := W (ix2 o ⟨j, hj⟩)

/-- The result in three terms: the differences against the first 64 weight columns, the neighbour's mean against
    column 64, the centre features against the last 64 columns. -/
def threeTerms (feat : ShFeat.Idx → EReal) (ctr : ShCtr.Idx → EReal) (W : ShW.Idx → EReal) : ShOut.Idx → EReal :=
  fun i =>
    (∑ d : Fin 64, (feat (ix3 (i 0) (i 1) d) - ctr (ix2 (i 0) d)) * wAt W (i 2) d.val (by omega))
      + Ideal.div (∑ d : Fin 64, feat (ix3 (i 0) (i 1) d)) c64 * wAt W (i 2) 64 (by omega)
      + ∑ d : Fin 64, ctr (ix2 (i 0) d) * wAt W (i 2) (65 + d.val) (by omega)

end Cert.CenterDiff

end
-- ==== Proof.KernelValue.lean ====
/-
  From blocks to the whole array: the kernel's result is the three-term form.

  The grid has 250 points; point `t` reads points 200·t … 200·t + 199 of the gathered neighbour features and
  of the gathered centre features, reads the three weight pieces whole, and writes the same 200 points of the
  result.  The three weight pieces are rows 0–63, row 64 and rows 65–128 of the transposed weight matrix, so
  entry (d, o) of a piece is entry (o, d), (o, 64) or (o, 65 + d) of `W`.  With the body's value at an entry
  of its block (the three sums over 64 channels), what point `t` writes back is block `t` of the three-term
  form of the gathered arrays and `W`; the 250 blocks cover the result, point `i / 200` covering point `i`.
-/
import proofs.«151762_j61272003445297_1_alg».proof.Proof.Gen.KernelIdeal.Value
import proofs.«151762_j61272003445297_1_alg».proof.Proof.BodyValue
import proofs.«151762_j61272003445297_1_alg».proof.Proof.CenterDiffSpec
import Idealize.ShloMosaic.Lib.ValueLayout
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.CenterDiff

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The windows' block indices at point `t`, decided over the 250 points: the two gathered arrays and the result
    move with the point along the leading axis, the weight pieces stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The result array the kernel ends with: the three-term form of the gathered arrays, as the region finds them,
    and the weight argument. -/
def result (c : Dev nD) : S50000x32x128.Idx → EReal :=
  threeTerms (V m c main_v6) (V m c main_v15) (m ((c : Thread nD τ).loc main_arg2))

/-! ## The weight pieces, read off the weight argument -/

theorem piece_diff (c : Dev nD) (d : Fin 64) (o : Fin 128) :
    (V m c main_v17 : S64x128.Idx → EReal) (ix2 d o) = (m ((c : Thread nD τ).loc main_arg2) : S128x129.Idx → EReal) (ix2 o ⟨d.val, by omega⟩) := by
  have e : (V m c main_v17 : S64x128.Idx → EReal)
      = extractStridedSlice S64x128 ![0, 0] (transpose S129x128 [1, 0] (m ((c : Thread nD τ).loc main_arg2) : S128x129.Idx → EReal) transposes_S128x129_S129x128_1_0) slices_S129x128_S64x128_0_0 := by
    dsimp only [V, hostOps0]; after_results
  rw [e]
  refine (ValueIdx.slice2_axis0_apply 0 _ _ d o ⟨d.val, by omega⟩ (by show d.val = 0 + d.val; omega)).trans ?_
  exact ValueIdx.transpose_ix2_apply _ _ _ _

theorem piece_mean (c : Dev nD) (z : Fin 1) (o : Fin 128) :
    (V m c main_v18 : S1x128.Idx → EReal) (ix2 z o) = (m ((c : Thread nD τ).loc main_arg2) : S128x129.Idx → EReal) (ix2 o ⟨64, by omega⟩) := by
  have e : (V m c main_v18 : S1x128.Idx → EReal)
      = extractStridedSlice S1x128 ![64, 0] (transpose S129x128 [1, 0] (m ((c : Thread nD τ).loc main_arg2) : S128x129.Idx → EReal) transposes_S128x129_S129x128_1_0) slices_S129x128_S1x128_64_0 := by
    dsimp only [V, hostOps0]; after_results
  rw [e]
  refine (ValueIdx.slice2_axis0_apply 64 _ _ z o ⟨64, by omega⟩ (by have := z.isLt; show (64 : ℕ) = 64 + z.val; omega)).trans ?_
  exact ValueIdx.transpose_ix2_apply _ _ _ _

theorem piece_centre (c : Dev nD) (d : Fin 64) (o : Fin 128) :
    (V m c main_v19 : S64x128.Idx → EReal) (ix2 d o) = (m ((c : Thread nD τ).loc main_arg2) : S128x129.Idx → EReal) (ix2 o ⟨65 + d.val, by omega⟩) := by
  have e : (V m c main_v19 : S64x128.Idx → EReal)
      = extractStridedSlice S64x128 ![65, 0] (transpose S129x128 [1, 0] (m ((c : Thread nD τ).loc main_arg2) : S128x129.Idx → EReal) transposes_S128x129_S129x128_1_0) slices_S129x128_S64x128_65_0 := by
    dsimp only [V, hostOps0]; after_results
  rw [e]
  refine (ValueIdx.slice2_axis0_apply 65 _ _ d o ⟨65 + d.val, by omega⟩ rfl).trans ?_
  exact ValueIdx.transpose_ix2_apply _ _ _ _

/-! ## The blocks, read off the arrays -/

/-- Entry (p, q, d) of the block of neighbour features at point `t` is entry (200·t + p, q, d) of the array. -/
theorem feat_block (c : Dev nD) (t : Fin cfg0.N) (p : Fin 200) (q : Fin 32) (d : Fin 64) (hp : t.val * 200 + p.val < 50000) :
    iblk m c 0 t (ix3 p q d) = (V m c main_v6 : S50000x32x64.Idx → EReal) (ix3 ⟨t.val * 200 + p.val, hp⟩ q d) := by
  obtain ⟨e0, e1, e2, -⟩ := idx_facts t
  show (V m c main_v6 : S50000x32x64.Idx → EReal) (((cfg0.win 0).blk t).view.emb (ix3 p q d)) = _
  refine congrArg (V m c main_v6 : S50000x32x64.Idx → EReal) (funext fun a => Fin.ext ?_)
  match a with
  | ⟨0, _⟩ => show win0_0.index t (0 : Fin 3) * 200 + 1 * p.val = t.val * 200 + p.val; rw [e0]; omega
  | ⟨1, _⟩ => show win0_0.index t (1 : Fin 3) * 32 + 1 * q.val = q.val; rw [e1]; omega
  | ⟨2, _⟩ => show win0_0.index t (2 : Fin 3) * 64 + 1 * d.val = d.val; rw [e2]; omega

/-- Entry (p, d) of the block of centre features at point `t` is entry (200·t + p, d) of the array. -/
theorem ctr_block (c : Dev nD) (t : Fin cfg0.N) (p : Fin 200) (d : Fin 64) (hp : t.val * 200 + p.val < 50000) :
    iblk m c 1 t (ix2 p d) = (V m c main_v15 : S50000x64.Idx → EReal) (ix2 ⟨t.val * 200 + p.val, hp⟩ d) := by
  obtain ⟨-, -, -, e0, e1, -⟩ := idx_facts t
  show (V m c main_v15 : S50000x64.Idx → EReal) (((cfg0.win 1).blk t).view.emb (ix2 p d)) = _
  refine congrArg (V m c main_v15 : S50000x64.Idx → EReal) (funext fun a => Fin.ext ?_)
  match a with
  | ⟨0, _⟩ => show win0_1.index t (0 : Fin 2) * 200 + 1 * p.val = t.val * 200 + p.val; rw [e0]; omega
  | ⟨1, _⟩ => show win0_1.index t (1 : Fin 2) * 64 + 1 * d.val = d.val; rw [e1]; omega

/-- The first weight piece is read whole at every point. -/
theorem diff_piece_block (c : Dev nD) (t : Fin cfg0.N) (d : Fin 64) (o : Fin 128) :
    iblk m c 2 t (ix2 d o) = (V m c main_v17 : S64x128.Idx → EReal) (ix2 d o) := by
  obtain ⟨-, -, -, -, -, e0, e1, -⟩ := idx_facts t
  show (V m c main_v17 : S64x128.Idx → EReal) (((cfg0.win 2).blk t).view.emb (ix2 d o)) = _
  refine congrArg (V m c main_v17 : S64x128.Idx → EReal) (funext fun a => Fin.ext ?_)
  match a with
  | ⟨0, _⟩ => show win0_2.index t (0 : Fin 2) * 64 + 1 * d.val = d.val; rw [e0]; omega
  | ⟨1, _⟩ => show win0_2.index t (1 : Fin 2) * 128 + 1 * o.val = o.val; rw [e1]; omega

/-- The middle weight row is read whole at every point. -/
theorem mean_piece_block (c : Dev nD) (t : Fin cfg0.N) (z : Fin 1) (o : Fin 128) :
    iblk m c 3 t (ix2 z o) = (V m c main_v18 : S1x128.Idx → EReal) (ix2 z o) := by
  obtain ⟨-, -, -, -, -, -, -, e0, e1, -⟩ := idx_facts t
  show (V m c main_v18 : S1x128.Idx → EReal) (((cfg0.win 3).blk t).view.emb (ix2 z o)) = _
  refine congrArg (V m c main_v18 : S1x128.Idx → EReal) (funext fun a => Fin.ext ?_)
  match a with
  | ⟨0, _⟩ => show win0_3.index t (0 : Fin 2) * 1 + 1 * z.val = z.val; rw [e0]; omega
  | ⟨1, _⟩ => show win0_3.index t (1 : Fin 2) * 128 + 1 * o.val = o.val; rw [e1]; omega

/-- The last weight piece is read whole at every point. -/
theorem centre_piece_block (c : Dev nD) (t : Fin cfg0.N) (d : Fin 64) (o : Fin 128) :
    iblk m c 4 t (ix2 d o) = (V m c main_v19 : S64x128.Idx → EReal) (ix2 d o) := by
  obtain ⟨-, -, -, -, -, -, -, -, -, e0, e1, -⟩ := idx_facts t
  show (V m c main_v19 : S64x128.Idx → EReal) (((cfg0.win 4).blk t).view.emb (ix2 d o)) = _
  refine congrArg (V m c main_v19 : S64x128.Idx → EReal) (funext fun a => Fin.ext ?_)
  match a with
  | ⟨0, _⟩ => show win0_4.index t (0 : Fin 2) * 64 + 1 * d.val = d.val; rw [e0]; omega
  | ⟨1, _⟩ => show win0_4.index t (1 : Fin 2) * 128 + 1 * o.val = o.val; rw [e1]; omega

/-- Entry (p, q, o) of the result's block at point `t` sits at (200·t + p, q, o) of the result. -/
theorem out_index (t : Fin cfg0.N) (p : Fin 200) (q : Fin 32) (o : Fin 128) (hp : t.val * 200 + p.val < 50000) :
    ((cfg0.win 5).blk t).view.emb (ix3 p q o) = ix3 ⟨t.val * 200 + p.val, hp⟩ q o := by
  obtain ⟨-, -, -, -, -, -, -, -, -, -, -, e0, e1, e2⟩ := idx_facts t
  refine funext fun a => Fin.ext ?_
  match a with
  | ⟨0, _⟩ => show win0_5.index t (0 : Fin 3) * 200 + 1 * p.val = t.val * 200 + p.val; rw [e0]; omega
  | ⟨1, _⟩ => show win0_5.index t (1 : Fin 3) * 32 + 1 * q.val = q.val; rw [e1]; omega
  | ⟨2, _⟩ => show win0_5.index t (2 : Fin 3) * 128 + 1 * o.val = o.val; rw [e2]; omega

/-! ## What a point writes back, the cover, the array -/

/-- What point `t` writes back is block `t` of the three-term form. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz3]
  simp only [View.ld_unit_zero (S := S200x32x64) hz3, View.ld_unit_zero (S := S200x64) hz2,
    View.ld_unit_zero (S := S64x128) hz2, View.ld_unit_zero (S := S1x128) hz2]
  funext j
  obtain ⟨p, q, o, rfl⟩ : ∃ (p : Fin 200) (q : Fin 32) (o : Fin 128), j = ix3 p q o := ⟨j 0, j 1, j 2, eq_ix3 j⟩
  have hN : cfg0.N = 250 := N_0
  have hp : t.val * 200 + p.val < 50000 := by have := t.isLt; have := p.isLt; omega
  show k0_pay1 (F := Ideal) (iblk m c 0 t) (iblk m c 1 t) (iblk m c 2 t) (iblk m c 3 t) (iblk m c 4 t) (ix3 p q o)
    = result m c (((cfg0.win 5).blk t).view.emb (ix3 p q o))
  rw [out_index t p q o hp]
  refine (BodyValue.payload_apply (iblk m c 0 t) (iblk m c 1 t) (iblk m c 2 t) (iblk m c 3 t) (iblk m c 4 t) p q o).trans ?_
  unfold result threeTerms
  refine congrArg₂ (· + ·) (congrArg₂ (· + ·) ?_ ?_) ?_
  · exact Finset.sum_congr rfl fun d _ => congrArg₂ (· * ·)
      (congrArg₂ (· - ·) (feat_block m c t p q d hp) (ctr_block m c t p d hp))
      ((diff_piece_block m c t d o).trans (piece_diff m c d o))
  · exact congrArg₂ (· * ·)
      (congrArg (Ideal.div · c64) (Finset.sum_congr rfl fun d _ => feat_block m c t p q d hp))
      ((mean_piece_block m c t 0 o).trans (piece_mean m c 0 o))
  · exact Finset.sum_congr rfl fun d _ => congrArg₂ (· * ·) (ctr_block m c t p d hp)
      ((centre_piece_block m c t d o).trans (piece_centre m c d o))

/-- An index of the result is in point `t`'s block iff each coordinate is in the block's range on its axis. -/
theorem mem_block (t : Fin cfg0.N) (i : S50000x32x128.Idx) :
    i ∈ ((cfg0.win 5).blk t).view.set ↔ ∀ a : Fin 3, win0_5.index t a * S200x32x128.size a ≤ (i a).val
      ∧ (i a).val < win0_5.index t a * S200x32x128.size a + S200x32x128.size a := by
  show i ∈ ((View.whole main_v20).slice (win0_5.rect t)).set ↔ _
  rw [View.set_slice_whole, Rect.mem_set_unit]
  exact Iff.rfl

/-- Point `i / 200` covers point `i` of the result. -/
theorem cover (i : S50000x32x128.Idx) :
    ∃ t : Fin cfg0.N, (cfg0.win 5).flush t = true ∧ i ∈ ((cfg0.win 5).blk t).view.set := by
  have hN : cfg0.N = 250 := N_0
  have hi0 : (i 0).val < 50000 := (i 0).isLt
  have hi1 : (i 1).val < 32 := (i 1).isLt
  have hi2 : (i 2).val < 128 := (i 2).isLt
  obtain ⟨t, ht⟩ : ∃ t : Fin cfg0.N, t.val = (i 0).val / 200 := ⟨⟨(i 0).val / 200, by omega⟩, rfl⟩
  obtain ⟨-, -, -, -, -, -, -, -, -, -, -, e0, e1, e2⟩ := idx_facts t
  refine ⟨t, flush0_5 t, ?_⟩
  rw [mem_block]
  intro a
  match a with
  | ⟨0, _⟩ =>
    show win0_5.index t (0 : Fin 3) * 200 ≤ (i 0).val ∧ (i 0).val < win0_5.index t (0 : Fin 3) * 200 + 200
    rw [e0, ht]; omega
  | ⟨1, _⟩ =>
    show win0_5.index t (1 : Fin 3) * 32 ≤ (i 1).val ∧ (i 1).val < win0_5.index t (1 : Fin 3) * 32 + 32
    rw [e1]; omega
  | ⟨2, _⟩ =>
    show win0_5.index t (2 : Fin 3) * 128 ≤ (i 2).val ∧ (i 2).val < win0_5.index t (2 : Fin 3) * 128 + 128
    rw [e2]; omega

/-- The result array after the run is the three-term form. -/
theorem final (c : Dev nD) : (dats m 0 c).arrAt 5 cfg0.N = result m c :=
  (dats m 0 c).arrAt_eq_of_cover 5 (result m c) (fun t _ => flushed_eq m c t) cover

/-- The kernel's run: every weakly fair execution terminates with the result at the three-term form and the
    arguments unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelValue

end
-- ==== Proof.LibConcatThree.lean ====
/-
  A concatenation of three rank-3 arrays along the last axis, read at an index.

  `concatenate` finds the piece an index falls in by walking the pieces' extents along the joined axis.  For three
  pieces of extents `n₁`, `n₂`, `n₃` on the last axis (the leading two axes shared) the index `(p, q, c)` reads the
  first piece at `(p, q, c)` when `c < n₁`, the second at `(p, q, c - n₁)` when `n₁ ≤ c < n₁ + n₂`, and the third at
  `(p, q, c - n₁ - n₂)` otherwise.  Stated for any element type and any extents; no program is mentioned.
-/
import Idealize.ShloMosaic.Lib.Pipeline.Value
import Idealize.ShloMosaic.Lib.ValueIdx

namespace Cert.LibConcatThree

open Idealize.ShloMosaic Idealize.ShloMosaic.ValueIdx

variable {α : Type} {a b n₁ n₂ n₃ n : ℕ}

/-- The first piece: last coordinate below the first extent. -/
theorem first_apply (y₁ : (⟨3, ![a, b, n₁]⟩ : Shape).Idx → α) (y₂ : (⟨3, ![a, b, n₂]⟩ : Shape).Idx → α)
    (y₃ : (⟨3, ![a, b, n₃]⟩ : Shape).Idx → α)
    (h : Shape.Concatenates [(⟨3, ![a, b, n₁]⟩ : Shape), ⟨3, ![a, b, n₂]⟩, ⟨3, ![a, b, n₃]⟩] ⟨3, ![a, b, n]⟩ 2)
    (p : Fin a) (q : Fin b) (c : Fin n) (d : Fin n₁) (hc : d.val = c.val) :
    concatenate (⟨3, ![a, b, n]⟩ : Shape) 2 [⟨_, y₁⟩, ⟨_, y₂⟩, ⟨_, y₃⟩] h (ix3 p q c) = y₁ (ix3 p q d) := by
  refine concatenate_apply_piece (t := ⟨3, ![a, b, n]⟩) (2 : Fin 3) [⟨_, y₁⟩, ⟨_, y₂⟩, ⟨_, y₃⟩] h (ix3 p q c) 0
    (by show 0 < 3; omega) _ y₁ rfl rfl 0 rfl (ix3 p q d) ?_ ?_
  · intro e he
    match e with
    | ⟨0, _⟩ => rfl
    | ⟨1, _⟩ => rfl
    | ⟨2, _⟩ => exact absurd rfl he
  · show 0 + d.val = c.val
    omega

/-- The second piece: last coordinate past the first extent, within the second. -/
theorem second_apply (y₁ : (⟨3, ![a, b, n₁]⟩ : Shape).Idx → α) (y₂ : (⟨3, ![a, b, n₂]⟩ : Shape).Idx → α)
    (y₃ : (⟨3, ![a, b, n₃]⟩ : Shape).Idx → α)
    (h : Shape.Concatenates [(⟨3, ![a, b, n₁]⟩ : Shape), ⟨3, ![a, b, n₂]⟩, ⟨3, ![a, b, n₃]⟩] ⟨3, ![a, b, n]⟩ 2)
    (p : Fin a) (q : Fin b) (c : Fin n) (d : Fin n₂) (hc : n₁ + d.val = c.val) :
    concatenate (⟨3, ![a, b, n]⟩ : Shape) 2 [⟨_, y₁⟩, ⟨_, y₂⟩, ⟨_, y₃⟩] h (ix3 p q c) = y₂ (ix3 p q d) := by
  refine concatenate_apply_piece (t := ⟨3, ![a, b, n]⟩) (2 : Fin 3) [⟨_, y₁⟩, ⟨_, y₂⟩, ⟨_, y₃⟩] h (ix3 p q c) 1
    (by show 1 < 3; omega) _ y₂ rfl rfl n₁ rfl (ix3 p q d) ?_ ?_
  · intro e he
    match e with
    | ⟨0, _⟩ => rfl
    | ⟨1, _⟩ => rfl
    | ⟨2, _⟩ => exact absurd rfl he
  · show n₁ + d.val = c.val
    omega

/-- The third piece: last coordinate past the first two extents. -/
theorem third_apply (y₁ : (⟨3, ![a, b, n₁]⟩ : Shape).Idx → α) (y₂ : (⟨3, ![a, b, n₂]⟩ : Shape).Idx → α)
    (y₃ : (⟨3, ![a, b, n₃]⟩ : Shape).Idx → α)
    (h : Shape.Concatenates [(⟨3, ![a, b, n₁]⟩ : Shape), ⟨3, ![a, b, n₂]⟩, ⟨3, ![a, b, n₃]⟩] ⟨3, ![a, b, n]⟩ 2)
    (p : Fin a) (q : Fin b) (c : Fin n) (d : Fin n₃) (hc : n₁ + n₂ + d.val = c.val) :
    concatenate (⟨3, ![a, b, n]⟩ : Shape) 2 [⟨_, y₁⟩, ⟨_, y₂⟩, ⟨_, y₃⟩] h (ix3 p q c) = y₃ (ix3 p q d) := by
  refine concatenate_apply_piece (t := ⟨3, ![a, b, n]⟩) (2 : Fin 3) [⟨_, y₁⟩, ⟨_, y₂⟩, ⟨_, y₃⟩] h (ix3 p q c) 2
    (by show 2 < 3; omega) _ y₃ rfl rfl (n₁ + n₂) rfl (ix3 p q d) ?_ ?_
  · intro e he
    match e with
    | ⟨0, _⟩ => rfl
    | ⟨1, _⟩ => rfl
    | ⟨2, _⟩ => exact absurd rfl he
  · show n₁ + n₂ + d.val = c.val
    omega

end Cert.LibConcatThree
-- ==== Proof.ReferenceValue.lean ====
/-
  The reference, index by index, is the three-term form.

  The reference joins, for every (point, slot), the 64 differences from the centre, the slot's mean and the 64
  centre features into one row of 129 channels, and multiplies by the weight matrix: entry (n, k, o) of its
  result is the sum over the 129 channels of that row against row `o` of `W`.  Reading the joined row piece by
  piece and splitting the sum at channels 64 and 65 gives the three terms.  The two gathers are kept as they
  are: both programs apply the same gathers to the same arguments.
-/
import proofs.«151762_j61272003445297_1_alg».proof.Proof.Gen.ReferenceIdeal.Read
import proofs.«151762_j61272003445297_1_alg».proof.Proof.CenterDiffSpec
import proofs.«151762_j61272003445297_1_alg».proof.Proof.LibConcatThree

noncomputable section

namespace Cert.ReferenceIdeal.RefValue

open Cert.ReferenceIdeal Cert.ReferenceIdeal.Read Idealize.ShloMosaic Idealize.ShloMosaic.ValueIdx Cert.CenterDiff

variable (x0 : (⟨S50000x64, .f32⟩ : BufTy).Contents (Elt Ideal)) (x1 : (⟨S50000x32, .i32⟩ : BufTy).Contents (Elt Ideal))

/-- The left operand of the final product at output (n, k, ·) and channel `c` is the joined row's entry (n, k, c). -/
theorem lidx_eq (n : Fin 50000) (k : Fin 32) (o : Fin 128) (c : Fin 129) :
    lidx_main_v25 (ix3 n k o) c = ix3 n k c :=
  funext fun a => by match a with | ⟨0, _⟩ => rfl | ⟨1, _⟩ => rfl | ⟨2, _⟩ => rfl

/-- The right operand is entry (o, c) of the weights. -/
theorem ridx_eq (n : Fin 50000) (k : Fin 32) (o : Fin 128) (c : Fin 129) :
    ridx_main_v25 (ix3 n k o) c = ix2 o c :=
  funext fun a => by match a with | ⟨0, _⟩ => rfl | ⟨1, _⟩ => rfl

/-- The centre features repeated over the slots, at (n, k, d): the centre's entry (n, d). -/
theorem centre_apply (n : Fin 50000) (k : Fin 32) (d : Fin 64) :
    val_main_v21 (F := Ideal) x0 x1 (ix3 n k d) = val_main_v15 (F := Ideal) x0 x1 (ix2 n d) := by
  rw [val_main_v21_apply, val_main_v16_apply]
  exact congrArg _ (funext fun a => by match a with | ⟨0, _⟩ => rfl | ⟨1, _⟩ => rfl)

/-- The second copy of the same broadcast. -/
theorem centre_apply' (n : Fin 50000) (k : Fin 32) (d : Fin 64) :
    val_main_v23 (F := Ideal) x0 x1 (ix3 n k d) = val_main_v15 (F := Ideal) x0 x1 (ix2 n d) := by
  rw [val_main_v23_apply, val_main_v16_apply]
  exact congrArg _ (funext fun a => by match a with | ⟨0, _⟩ => rfl | ⟨1, _⟩ => rfl)

/-- The slot's mean, at (n, k, 0): the sum of its 64 features over 64. -/
theorem mean_apply (n : Fin 50000) (k : Fin 32) (z : Fin 1) :
    val_main_v20 (F := Ideal) x0 x1 (ix3 n k z)
      = Ideal.div (∑ d : Fin 64, val_main_v6 (F := Ideal) x0 x1 (ix3 n k d)) c64 := by
  rw [val_main_v20_apply, val_main_v18_apply, val_main_v17_apply, val_main_v19_apply, val_main_cst_3_apply,
    val_main_cst_apply]
  show Ideal.div (Ideal.ofBits .f32 0x00000000#32 + _) (Ideal.ofBits .f32 0x42800000#32) = _
  rw [Ideal.ofBits_zero_f32, zero_add]
  refine congrArg (Ideal.div · c64) (Finset.sum_congr rfl fun d _ => congrArg _ ?_)
  exact funext fun a => by match a with | ⟨0, _⟩ => rfl | ⟨1, _⟩ => rfl | ⟨2, _⟩ => rfl

/-- The joined row on its first 64 channels: the differences from the centre. -/
theorem row_diff (n : Fin 50000) (k : Fin 32) (d : Fin 64) :
    val_main_v24 (F := Ideal) x0 x1 (ix3 n k ⟨d.val, by omega⟩)
      = val_main_v6 (F := Ideal) x0 x1 (ix3 n k d) - val_main_v15 (F := Ideal) x0 x1 (ix2 n d) := by
  unfold val_main_v24
  refine (Cert.LibConcatThree.first_apply (n₁ := 64) (n₂ := 1) (n₃ := 64) (n := 129) _ _ _ _ n k ⟨d.val, by omega⟩ d rfl).trans ?_
  rw [val_main_v22_apply, centre_apply]
  rfl

/-- The joined row on channel 64: the slot's mean. -/
theorem row_mean (n : Fin 50000) (k : Fin 32) :
    val_main_v24 (F := Ideal) x0 x1 (ix3 n k ⟨64, by omega⟩)
      = Ideal.div (∑ d : Fin 64, val_main_v6 (F := Ideal) x0 x1 (ix3 n k d)) c64 := by
  unfold val_main_v24
  refine (Cert.LibConcatThree.second_apply (n₁ := 64) (n₂ := 1) (n₃ := 64) (n := 129) _ _ _ _ n k ⟨64, by omega⟩ (0 : Fin 1) rfl).trans ?_
  exact mean_apply x0 x1 n k 0

/-- The joined row on its last 64 channels: the centre features. -/
theorem row_centre (n : Fin 50000) (k : Fin 32) (d : Fin 64) :
    val_main_v24 (F := Ideal) x0 x1 (ix3 n k ⟨65 + d.val, by omega⟩)
      = val_main_v15 (F := Ideal) x0 x1 (ix2 n d) := by
  unfold val_main_v24
  refine (Cert.LibConcatThree.third_apply (n₁ := 64) (n₂ := 1) (n₃ := 64) (n := 129) _ _ _ _ n k ⟨65 + d.val, by omega⟩ d rfl).trans ?_
  exact centre_apply' x0 x1 n k d

/-- The reference's result is the three-term form of the gathered neighbour features, the gathered centre
    features and the weights. -/
theorem result_eq (x2 : (⟨S128x129, .f32⟩ : BufTy).Contents (Elt Ideal)) :
    val_main_v25 (F := Ideal) x0 x1 x2
      = threeTerms (val_main_v6 (F := Ideal) x0 x1) (val_main_v15 (F := Ideal) x0 x1) x2 := by
  funext i
  obtain ⟨n, k, o, rfl⟩ : ∃ (n : Fin 50000) (k : Fin 32) (o : Fin 128), i = ix3 n k o := ⟨i 0, i 1, i 2, eq_ix3 i⟩
  rw [val_main_v25_apply, sum_split_129]
  simp only [lidx_eq, ridx_eq, row_diff, row_mean, row_centre]
  rfl

end Cert.ReferenceIdeal.RefValue

end
-- ==== Proof.lean ====
/-
  Neighbour features through a pointwise linear layer: the kernel against its reference, over the extended reals.

  Both programs gather, for each of 50000 points, the features of its 32 neighbours (`feat`, [50000, 32, 64]) and
  of its first neighbour, the centre (`ctr`, [50000, 64]), with the same gathers of the same arguments.  The
  reference joins the differences `feat - ctr`, the mean of `feat` over its 64 features and `ctr` into rows of
  129 channels and multiplies by the weight matrix `W : [128, 129]`.  The kernel never builds the joined row: it
  multiplies the differences by the first 64 columns of `W`, the mean by column 64 and the centre features by the
  last 64 columns, and adds the three.  A sum over 129 channels is the sum over its three consecutive stretches,
  whatever the summands (no distributivity and no cancellation is used, so infinities do no harm and the
  finiteness of the inputs is not needed): `Cert.CenterDiff.threeTerms` is both results.

  The kernel's frames and its run block by block, and the reference's run operation by operation, are the
  generated modules; by hand are the body's value at an entry of its block, the passage from blocks to the
  array, the reference read index by index, and the identification of the two.
-/
import proofs.«151762_j61272003445297_1_alg».proof.Defs
import proofs.«151762_j61272003445297_1_alg».proof.Proof.Gen.Kernel
import proofs.«151762_j61272003445297_1_alg».proof.Proof.Gen.Kernel.Skeleton
import proofs.«151762_j61272003445297_1_alg».proof.Proof.Gen.Kernel.Launch
import proofs.«151762_j61272003445297_1_alg».proof.Proof.Gen.Kernel.Points
import proofs.«151762_j61272003445297_1_alg».proof.Proof.Gen.Kernel.Frame
import proofs.«151762_j61272003445297_1_alg».proof.Proof.Gen.KernelIdeal
import proofs.«151762_j61272003445297_1_alg».proof.Proof.Gen.KernelIdeal.Skeleton
import proofs.«151762_j61272003445297_1_alg».proof.Proof.Gen.KernelIdeal.Launch
import proofs.«151762_j61272003445297_1_alg».proof.Proof.Gen.KernelIdeal.Points
import proofs.«151762_j61272003445297_1_alg».proof.Proof.Gen.KernelIdeal.Frame
import proofs.«151762_j61272003445297_1_alg».proof.Proof.Gen.ReferenceIdeal
import proofs.«151762_j61272003445297_1_alg».proof.Proof.Gen.Pre_finite_inputs
import proofs.«151762_j61272003445297_1_alg».proof.Proof.Gen.KernelIdeal.Value
import proofs.«151762_j61272003445297_1_alg».proof.Proof.Gen.ReferenceIdeal.Run
import proofs.«151762_j61272003445297_1_alg».proof.Proof.Gen.ReferenceIdeal.Read
import proofs.«151762_j61272003445297_1_alg».proof.Proof.KernelValue
import proofs.«151762_j61272003445297_1_alg».proof.Proof.ReferenceValue
import Idealize.ShloMosaic.Adequacy
import Idealize.ShloMosaic.Init

noncomputable section

namespace Cert.Proof

open Idealize.ShloMosaic Idealize.ShloMosaic.TcCoe Idealize.SL.Sem Idealize.ShloMosaic.StableHlo

section Gathers

open Cert.KernelIdeal Cert.KernelIdeal.Gen

variable (m : (ℓ : Loc nD τ sig) → Buf (Elt Ideal) ℓ)

/-- The neighbour features the kernel's region finds are the reference's gather of the same arguments: the two
    programs spell the index normalisation and the gather alike. -/
theorem feat_eq (c : Dev nD) :
    (V m c main_v6 : S50000x32x64.Idx → EReal)
      = Cert.ReferenceIdeal.Read.val_main_v6 (F := Ideal) (m ((c : Thread nD τ).loc main_arg0)) (m ((c : Thread nD τ).loc main_arg1)) := by
  dsimp only [V, hostOps0]; after_results <;> rfl

/-- The same for the centre features. -/
theorem ctr_eq (c : Dev nD) :
    (V m c main_v15 : S50000x64.Idx → EReal)
      = Cert.ReferenceIdeal.Read.val_main_v15 (F := Ideal) (m ((c : Thread nD τ).loc main_arg0)) (m ((c : Thread nD τ).loc main_arg1)) := by
  dsimp only [V, hostOps0]; after_results <;> rfl

end Gathers

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end at the three-term form of the same gathered arrays and weights. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.result_eq,
    (hagree c).1, (hagree c).2.1, (hagree c).2.2]
  show _ = Cert.KernelIdeal.KernelValue.result m c
  unfold Cert.KernelIdeal.KernelValue.result
  rw [feat_eq m c, ctr_eq m c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
